-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x2048 : Shape := ⟨3, ![8, 4096, 2048]⟩
abbrev S4x2048 : Shape := ⟨2, ![4, 2048]⟩
abbrev S2048 : Shape := ⟨1, ![2048]⟩
abbrev S_ : Shape := ⟨0, ![]⟩

class Facts : Prop where
  bcast_S_S8x4096x2048 : S_.BroadcastsInDim S8x4096x2048 (![] : Fin 0 → Fin S8x4096x2048.rank)
  reducesTo_S8x4096x2048_S_d0_1_2 : S8x4096x2048.ReducesTo [0, 1, 2] S_
  h_S_ : 0 < S_.numel
  bcast_S_S4x2048 : S_.BroadcastsInDim S4x2048 (![] : Fin 0 → Fin S4x2048.rank)
  reducesTo_S4x2048_S_d0_1 : S4x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S8x4096x2048 .f32) (main_arg1 : FVec F S4x2048 .f32) (main_arg2 : FVec F S2048 .f32) : IVec S_ 1 :=
  let main_v0 : FVec F S8x4096x2048 .f32 := Host.absf main_arg0
  let main_cst : FVec F S_ .f32 := constant S_ .f32 0x7F800000#32
  let main_v1 : FVec F S8x4096x2048 .f32 := broadcastInDim S8x4096x2048 ![] bcast_S_S8x4096x2048 main_cst
  let main_v2 : IVec S8x4096x2048 1 := cmpf .olt main_v0 main_v1
  let main_c : IVec S_ 1 := constantI S_ 1 1#1
  let main_v3 : IVec S_ 1 := (fun x v => Host.reduce IntOp.andi x v reducesTo_S8x4096x2048_S_d0_1_2 h_S_) main_v2 main_c
  let main_v4 : FVec F S4x2048 .f32 := Host.absf main_arg1
  let main_cst_0 : FVec F S_ .f32 := constant S_ .f32 0x7F800000#32
  let main_v5 : FVec F S4x2048 .f32 := broadcastInDim S4x2048 ![] bcast_S_S4x2048 main_cst_0
  let main_v6 : IVec S4x2048 1 := cmpf .olt main_v4 main_v5
  let main_c_1 : IVec S_ 1 := constantI S_ 1 1#1
  let main_v7 : IVec S_ 1 := (fun x v => Host.reduce IntOp.andi x v reducesTo_S4x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S8x4096x2048 : Shape := ⟨3, ![8, 4096, 2048]⟩
abbrev S4x2048 : Shape := ⟨2, ![4, 2048]⟩
abbrev S2048 : Shape := ⟨1, ![2048]⟩
abbrev S1x2048 : Shape := ⟨2, ![1, 2048]⟩
abbrev S1x512x2048 : Shape := ⟨3, ![1, 512, 2048]⟩
abbrev S3x2048 : Shape := ⟨2, ![3, 2048]⟩
abbrev S512x2048 : Shape := ⟨2, ![512, 2048]⟩
abbrev S6x2048 : Shape := ⟨2, ![6, 2048]⟩
abbrev S1x3x2048 : Shape := ⟨3, ![1, 3, 2048]⟩

abbrev nBuf : Space → Nat
  | .hbm => 5
  | .vmem => 7
  | .smem => 0
  | _ => 0

abbrev bufTy : (tb : Table) → Fin (tcTables nBuf tb) → BufTy
  | .hbm, ⟨0, _⟩ => ⟨S8x4096x2048, .f32⟩
  | .hbm, ⟨1, _⟩ => ⟨S4x2048, .f32⟩
  | .hbm, ⟨2, _⟩ => ⟨S2048, .f32⟩
  | .hbm, ⟨3, _⟩ => ⟨S1x2048, .f32⟩
  | .hbm, ⟨4, _⟩ => ⟨S8x4096x2048, .f32⟩
  | .local _ .vmem, ⟨0, _⟩ => ⟨S1x512x2048, .f32⟩
  | .local _ .vmem, ⟨1, _⟩ => ⟨S1x512x2048, .f32⟩
  | .local _ .vmem, ⟨2, _⟩ => ⟨S4x2048, .f32⟩
  | .local _ .vmem, ⟨3, _⟩ => ⟨S1x2048, .f32⟩
  | .local _ .vmem, ⟨4, _⟩ => ⟨S1x512x2048, .f32⟩
  | .local _ .vmem, ⟨5, _⟩ => ⟨S1x512x2048, .f32⟩
  | .local _ .vmem, ⟨6, _⟩ => ⟨S3x2048, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S2048_S1x2048 : S2048.ShapeCasts S1x2048
  inb_S3x2048_S3x2048_0_0 : ∀ a, (![0, 0] : Fin 2 → Nat) a + S3x2048.size a ≤ S3x2048.size a
  h_S3x2048 : 0 < S3x2048.numel
  shapeCasts_S3x2048_S3x2048 : S3x2048.ShapeCasts S3x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S4x2048_S4x2048_0_0 : ∀ a, (![0, 0] : Fin 2 → Nat) a + S4x2048.size a ≤ S4x2048.size a
  h_S4x2048 : 0 < S4x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  slices_S4x2048_o3_0_S1x2048 : S4x2048.Slices ![3, 0] S1x2048
  shapeCasts_S1x2048_S2048 : S1x2048.ShapeCasts S2048
  broadcasts_S1x2048_S512x2048 : S1x2048.Broadcasts S512x2048
  shapeCasts_S512x2048_S1x512x2048 : S512x2048.ShapeCasts S1x512x2048
  rotates_S512x2048_d0 : S512x2048.Rotates 0 none
  slices_S4x2048_o0_0_S1x2048 : S4x2048.Slices ![0, 0] S1x2048
  slices_S4x2048_o1_0_S1x2048 : S4x2048.Slices ![1, 0] S1x2048
  slices_S4x2048_o2_0_S1x2048 : S4x2048.Slices ![2, 0] S1x2048
  slices_S512x2048_o0_0_S3x2048 : S512x2048.Slices ![0, 0] S3x2048
  concatenates_S3x2048_S3x2048_S6x2048_d0 : Shape.Concatenates [S3x2048, S3x2048] S6x2048 0
  broadcasts_S1x2048_S3x2048 : S1x2048.Broadcasts S3x2048
  slices_S6x2048_o0_0_S3x2048 : S6x2048.Slices ![0, 0] S3x2048
  slices_S6x2048_o1_0_S3x2048 : S6x2048.Slices ![1, 0] S3x2048
  slices_S6x2048_o2_0_S3x2048 : S6x2048.Slices ![2, 0] S3x2048
  slices_S6x2048_o3_0_S3x2048 : S6x2048.Slices ![3, 0] S3x2048
  inb_S1x512x2048_S1x3x2048_0_0_0 : ∀ a, (![0, 0, 0] : Fin 3 → Nat) a + S1x3x2048.size a ≤ S1x512x2048.size a
  h_S1x3x2048 : 0 < S1x3x2048.numel
  shapeCasts_S1x3x2048_S3x2048 : S1x3x2048.ShapeCasts S3x2048
  shapeCasts_S3x2048_S1x3x2048 : S3x2048.ShapeCasts S1x3x2048
  slices_S512x2048_o509_0_S3x2048 : S512x2048.Slices ![509, 0] S3x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S8x4096x2048.size a
  hwx0_0 : ∀ i : grid0.Coords, EltTy.bits .f32 = 32 ∨ (Rect.block (s := S8x4096x2048) S1x512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x2048.size a ≤ S4x2048.size a
  hwx0_1 : ∀ i : grid0.Coords, EltTy.bits .f32 = 32 ∨ (Rect.block (s := S4x2048) S4x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S8x4096x2048.size a
  hwx0_3 : ∀ i : grid0.Coords, EltTy.bits .f32 = 32 ∨ (Rect.block (s := S8x4096x2048) S1x512x2048.size (cc0_transform_3 i) (hinb0_3 i)).WholeWords (EltTy.packing .f32)

variable [Facts₀]

abbrev win0_0 : Pipeline.Window sig grid0 :=
  Pipeline.Window.ofSpec (Memref.whole main_arg0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x2048 : Shape := ⟨3, ![8, 4096, 2048]⟩
abbrev S4x2048 : Shape := ⟨2, ![4, 2048]⟩
abbrev S2048 : Shape := ⟨1, ![2048]⟩
abbrev S_ : Shape := ⟨0, ![]⟩
abbrev S8x4099x2048 : Shape := ⟨3, ![8, 4099, 2048]⟩
abbrev S1x2048 : Shape := ⟨2, ![1, 2048]⟩
abbrev S1x1x2048 : Shape := ⟨3, ![1, 1, 2048]⟩

abbrev nBuf : Space → Nat
  | .hbm => 36
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S4x2048, .f32⟩
  | .hbm, ⟨2, _⟩ => ⟨S2048, .f32⟩
  | .hbm, ⟨3, _⟩ => ⟨S_, .i32⟩
  | .hbm, ⟨4, _⟩ => ⟨S_, .f32⟩
  | .hbm, ⟨5, _⟩ => ⟨S8x4099x2048, .f32⟩
  | .hbm, ⟨6, _⟩ => ⟨S8x4096x2048, .f32⟩
  | .hbm, ⟨7, _⟩ => ⟨S1x2048, .f32⟩
  | .hbm, ⟨8, _⟩ => ⟨S2048, .f32⟩
  | .hbm, ⟨9, _⟩ => ⟨S1x1x2048, .f32⟩
  | .hbm, ⟨10, _⟩ => ⟨S8x4096x2048, .f32⟩
  | .hbm, ⟨11, _⟩ => ⟨S8x4096x2048, .f32⟩
  | .hbm, ⟨12, _⟩ => ⟨S1x1x2048, .f32⟩
  | .hbm, ⟨13, _⟩ => ⟨S8x4096x2048, .f32⟩
  | .hbm, ⟨14, _⟩ => ⟨S8x4096x2048, .f32⟩
  | .hbm, ⟨15, _⟩ => ⟨S8x4096x2048, .f32⟩
  | .hbm, ⟨16, _⟩ => ⟨S1x2048, .f32⟩
  | .hbm, ⟨17, _⟩ => ⟨S2048, .f32⟩
  | .hbm, ⟨18, _⟩ => ⟨S1x1x2048, .f32⟩
  | .hbm, ⟨19, _⟩ => ⟨S8x4096x2048, .f32⟩
  | .hbm, ⟨20, _⟩ => ⟨S8x4096x2048, .f32⟩
  | .hbm, ⟨21, _⟩ => ⟨S8x4096x2048, .f32⟩
  | .hbm, ⟨22, _⟩ => ⟨S8x4096x2048, .f32⟩
  | .hbm, ⟨23, _⟩ => ⟨S1x2048, .f32⟩
  | .hbm, ⟨24, _⟩ => ⟨S2048, .f32⟩
  | .hbm, ⟨25, _⟩ => ⟨S1x1x2048, .f32⟩
  | .hbm, ⟨26, _⟩ => ⟨S8x4096x2048, .f32⟩
  | .hbm, ⟨27, _⟩ => ⟨S8x4096x2048, .f32⟩
  | .hbm, ⟨28, _⟩ => ⟨S8x4096x2048, .f32⟩
  | .hbm, ⟨29, _⟩ => ⟨S8x4096x2048, .f32⟩
  | .hbm, ⟨30, _⟩ => ⟨S1x2048, .f32⟩
  | .hbm, ⟨31, _⟩ => ⟨S2048, .f32⟩
  | .hbm, ⟨32, _⟩ => ⟨S1x1x2048, .f32⟩
  | .hbm, ⟨33, _⟩ => ⟨S8x4096x2048, .f32⟩
  | .hbm, ⟨34, _⟩ => ⟨S8x4096x2048, .f32⟩
  | .hbm, ⟨35, _⟩ => ⟨S8x4096x2048, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩

abbrev nD : Nat := 1
abbrev τ : Topo := Topo.v7x

variable {F : FTy → Type} [FloatOps F]

class Facts₀ : Prop where
  pads_S8x4096x2048_S8x4099x2048_000_300_000 : S8x4096x2048.Pads (![0, 3, 0] : Fin 3 → Nat) ![0, 0, 0] ![0, 0, 0] S8x4099x2048
  h_S_ : 0 < S_.numel
  slices_S8x4099x2048_S8x4096x2048_0_0_0 : S8x4099x2048.Slices ![0, 0, 0] S8x4096x2048
  slices_S4x2048_S1x2048_0_0 : S4x2048.Slices ![0, 0] S1x2048
  shapeCasts_S1x2048_S2048 : S1x2048.ShapeCasts S2048
  bcast_S2048_S1x1x2048_2 : S2048.BroadcastsInDim S1x1x2048 (![2] : Fin 1 → Fin S1x1x2048.rank)
  bcast_S1x1x2048_S8x4096x2048_0_1_2 : S1x1x2048.BroadcastsInDim S8x4096x2048 (![0, 1, 2] : Fin 3 → Fin S8x4096x2048.rank)
  slices_S8x4099x2048_S8x4096x2048_0_1_0 : S8x4099x2048.Slices ![0, 1, 0] S8x4096x2048
  slices_S4x2048_S1x2048_1_0 : S4x2048.Slices ![1, 0] S1x2048
  slices_S8x4099x2048_S8x4096x2048_0_2_0 : S8x4099x2048.Slices ![0, 2, 0] S8x4096x2048
  slices_S4x2048_S1x2048_2_0 : S4x2048.Slices ![2, 0] S1x2048
  slices_S8x4099x2048_S8x4096x2048_0_3_0 : S8x4099x2048.Slices ![0, 3, 0] S8x4096x2048
  slices_S4x2048_S1x2048_3_0 : S4x2048.Slices ![3, 0] S1x2048

variable [Facts₀]

class Facts : Prop extends Facts₀ where

variable [Facts]
-- ==== Proof.ConvPieces.lean ====
/-
  What one grid point leaves in the output block and in the carried halo, as pure functions of the point's
  input blocks (the time tile `x0`, the four weight rows `x1`, the bias row `x2`) and of the halo it found.

  The body writes the output block four times whole — last tap plus bias, then one more tap each time, every tap a
  rotation of the tile along time — and then rewrites its first three rows from the halo followed by the tile's first
  three rows. So the block ends as the three-row patch laid over the fourth whole write. The halo ends as the tile's last
  three rows, whatever it held before: it depends on the current tile only.
-/
import proofs.«107712_j50818053046278_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.ConvPieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A load of a whole buffer, after a store of the whole buffer that came last, reads that store's payload,
    whatever was stored before it. -/
theorem readCov_cons_whole {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

/-- The block after its fourth whole write: bias and all four taps, the three earlier taps as rotations of the tile. -/
def rolled (x0 : Vec F S1x512x2048 .f32) (x1 : Vec F S4x2048 .f32) (x2 : Vec F S1x2048 .f32) : Vec F S1x512x2048 .f32 :=
  k0_pay10 (k0_pay4 x0) x1 (k0_pay9 x1 (k0_pay8 x0) (k0_pay7 x0 x1 (k0_pay6 x0 x1 x2)))

/-- The three-row patch: bias and the four taps read off the halo followed by the tile's first three rows. -/
def patch (x0 : Vec F S1x512x2048 .f32) (x1 : Vec F S4x2048 .f32) (x2 : Vec F S1x2048 .f32) (halo : Vec F S3x2048 .f32) :
    Vec F S1x3x2048 .f32 :=
  k0_pay1 x1 (k0_pay11 (k0_pay4 x0) halo) (k0_pay12 (k0_pay4 x0) x1 (k0_pay5 x2) halo) (k0_pay13 (k0_pay4 x0) halo) (k0_pay14 x1)

/-- The first three rows of the block, as a rectangle of it. -/
abbrev headRect : Rect S1x512x2048 := Rect.unit ![0, 0, 0] ![1, 3, 2048] inb_S1x512x2048_S1x3x2048_0_0_0

/-- The block a point leaves, given the halo it found. -/
def blockOf (x0 : Vec F S1x512x2048 .f32) (x1 : Vec F S4x2048 .f32) (x2 : Vec F S1x2048 .f32) (halo : Vec F S3x2048 .f32) :
    Vec F S1x512x2048 .f32 :=
  headRect.overlay (rolled x0 x1 x2) (patch x0 x1 x2 halo)

/-- The halo a point leaves: the last three rows of its tile. -/
def haloOf (x0 : Vec F S1x512x2048 .f32) : Vec F S3x2048 .f32 := k0_pay2 (k0_pay4 x0)

/-- At the first tile of a batch the halo is reset to zero before it is read. -/
theorem halo_first (c : Dev nD) (i : grid0.Coords) (a2 : Memref sig .tc .vmem S1x512x2048 .f32) (h2 : a2.IsWhole) (a3 : Memref sig .tc .vmem S4x2048 .f32) (h3 : a3.IsWhole) (a4 : Memref sig .tc .vmem S1x2048 .f32) (h4 : a4.IsWhole) (a5 : Memref sig .tc .vmem S1x512x2048 .f32) (h5 : a5.IsWhole) (a6 : Memref sig .tc .vmem S3x2048 .f32) (h6 : a6.IsWhole) (hc : cond0_0 i) (x0 : Vec F S1x512x2048 .f32) (x1 : Vec F S4x2048 .f32) (x2 : Vec F S1x2048 .f32) :
    sout0_A_0 c i a2 h2 a3 h3 a4 h4 a5 h5 a6 h6 hc x0 x1 x2 = haloOf x0 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_cons_unit_zero (S := S3x2048) hz2]
  unfold haloOf
  simp only [View.readAt_eq_ld, h2.read_unread, View.ld_unit_zero (S := S1x512x2048) hz3]

theorem halo_later (c : Dev nD) (i : grid0.Coords) (a2 : Memref sig .tc .vmem S1x512x2048 .f32) (h2 : a2.IsWhole) (a3 : Memref sig .tc .vmem S4x2048 .f32) (h3 : a3.IsWhole) (a4 : Memref sig .tc .vmem S1x2048 .f32) (h4 : a4.IsWhole) (a5 : Memref sig .tc .vmem S1x512x2048 .f32) (h5 : a5.IsWhole) (a6 : Memref sig .tc .vmem S3x2048 .f32) (h6 : a6.IsWhole) (hc : ¬cond0_0 i) (x0 : Vec F S1x512x2048 .f32) (x1 : Vec F S4x2048 .f32) (x2 : Vec F S1x2048 .f32) (xs0 : Vec F S3x2048 .f32) :
    sout0_B_0 c i a2 h2 a3 h3 a4 h4 a5 h5 a6 h6 hc x0 x1 x2 xs0 = haloOf x0 := by
  unfold sout0_B_0
  rw [View.read_writes_eq_canon _ _ _ (scover0_B_0 c i a2 h2 a3 h3 a4 h4 a5 h5 a6 h6 hc x0 x1 x2 xs0)]
  unfold kernelRun0_B
  dsimp only
  sl_unfold_words
  rw [View.canon_unit_zero (S := S3x2048) hz2]
  unfold haloOf
  simp only [View.readAt_eq_ld, h2.read_unread, View.ld_unit_zero (S := S1x512x2048) hz3]

/-- At the first tile of a batch the patch is computed from the zero halo. -/
theorem block_first (c : Dev nD) (i : grid0.Coords) (a2 : Memref sig .tc .vmem S1x512x2048 .f32) (h2 : a2.IsWhole) (a3 : Memref sig .tc .vmem S4x2048 .f32) (h3 : a3.IsWhole) (a4 : Memref sig .tc .vmem S1x2048 .f32) (h4 : a4.IsWhole) (a5 : Memref sig .tc .vmem S1x512x2048 .f32) (h5 : a5.IsWhole) (a6 : Memref sig .tc .vmem S3x2048 .f32) (h6 : a6.IsWhole) (hc : cond0_0 i) (x0 : Vec F S1x512x2048 .f32) (x1 : Vec F S4x2048 .f32) (x2 : Vec F S1x2048 .f32) :
    out0_A_3 c i a2 h2 a3 h3 a4 h4 a5 h5 a6 h6 hc x0 x1 x2 = blockOf x0 x1 x2 (k0_pay3 (F := F)) := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_cons, View.canon_cons_unit_zero (S := S1x512x2048) hz3]
  unfold blockOf rolled patch
  simp only [View.readAt_eq_ld, h2.read_unread, h3.read_unread, h4.read_unread,
    View.ld_unit_zero (S := S1x512x2048) hz3, View.ld_unit_zero (S := S4x2048) hz2, View.ld_unit_zero (S := S1x2048) hz2,
    readCov_cons_whole (S := S1x512x2048) _ hz3, readCov_cons_whole (S := S3x2048) _ hz2]

/-- At a later tile the patch is computed from the halo the tile before left. -/
theorem block_later (c : Dev nD) (i : grid0.Coords) (a2 : Memref sig .tc .vmem S1x512x2048 .f32) (h2 : a2.IsWhole) (a3 : Memref sig .tc .vmem S4x2048 .f32) (h3 : a3.IsWhole) (a4 : Memref sig .tc .vmem S1x2048 .f32) (h4 : a4.IsWhole) (a5 : Memref sig .tc .vmem S1x512x2048 .f32) (h5 : a5.IsWhole) (a6 : Memref sig .tc .vmem S3x2048 .f32) (h6 : a6.IsWhole) (hc : ¬cond0_0 i) (x0 : Vec F S1x512x2048 .f32) (x1 : Vec F S4x2048 .f32) (x2 : Vec F S1x2048 .f32) (xs0 : Vec F S3x2048 .f32) :
    out0_B_3 c i a2 h2 a3 h3 a4 h4 a5 h5 a6 h6 hc x0 x1 x2 xs0 = blockOf x0 x1 x2 xs0 := by
  unfold out0_B_3
  rw [View.read_writes_eq_canon _ _ _ (cover0_B_3 c i a2 h2 a3 h3 a4 h4 a5 h5 a6 h6 hc x0 x1 x2 xs0)]
  unfold kernelRun0_B
  dsimp only
  sl_unfold_words
  rw [View.canon_cons, View.canon_cons_unit_zero (S := S1x512x2048) hz3]
  unfold blockOf rolled patch
  simp only [View.readAt_eq_ld, h2.read_unread, h3.read_unread, h4.read_unread, h6.read_unread,
    View.ld_unit_zero (S := S1x512x2048) hz3, View.ld_unit_zero (S := S4x2048) hz2, View.ld_unit_zero (S := S1x2048) hz2,
    View.ld_unit_zero (S := S3x2048) hz2,
    readCov_cons_whole (S := S1x512x2048) _ hz3]

end Cert.KernelIdeal.ConvPieces

end
-- ==== Proof.ConvSpec.lean ====
/-
  The specification: a depthwise causal convolution with four taps along the time axis.
  For a batch b, a time t and a channel d,
    y[b, t, d] = bias[d] + Σ_{k<4} xpad[b, t + k, d] · w[k, d],
  where xpad is x moved three steps later along time with zeros in front: xpad[b, s, d] = 0 for s < 3 and
  x[b, s - 3, d] otherwise. The sum is taken in the order bias, tap 0, tap 1, tap 2, tap 3.
  Everything is over the extended reals; only commutativity and associativity of addition are used, so no
  entry needs to be finite.
-/
import Idealize.ShloMosaic.PureOps.Ideal
import Idealize.ShloMosaic.Lib.ValueIdx

noncomputable section

namespace Cert.ConvSpec

open Idealize.ShloMosaic Idealize.ShloMosaic.ValueIdx

/-- The shapes of the three arguments and of the result. -/
abbrev SX : Shape := ⟨3, ![8, 4096, 2048]⟩
abbrev SW : Shape := ⟨2, ![4, 2048]⟩
abbrev SB : Shape := ⟨1, ![2048]⟩

/-- The input read at the padded time `s`: zero in the three leading positions, `x` three steps earlier afterwards. -/
def xpad (x : SX.Idx → EReal) (b : Fin 8) (s : ℕ) (d : Fin 2048) : EReal :=
  if h : 3 ≤ s ∧ s - 3 < 4096 then x (ix3 b ⟨s - 3, h.2⟩ d) else 0

theorem xpad_of_lt (x : SX.Idx → EReal) (b : Fin 8) (s : ℕ) (d : Fin 2048) (h : s < 3) : xpad x b s d = 0 := by
  unfold xpad; rw [dif_neg (by omega)]

theorem xpad_of_ge (x : SX.Idx → EReal) (b : Fin 8) (s : ℕ) (d : Fin 2048) (u : Fin 4096) (h : s = u.val + 3) :
    xpad x b s d = x (ix3 b u d) := by
  unfold xpad
  have h' : 3 ≤ s ∧ s - 3 < 4096 := ⟨by omega, by have := u.isLt; omega⟩
  rw [dif_pos h']
  exact congrArg x (by congr 1; exact Fin.ext (by show s - 3 = u.val; omega))

/-- One tap: the padded input at time `t + k` times the weight of tap `k`. -/
def tap (x : SX.Idx → EReal) (w : SW.Idx → EReal) (k : Fin 4) (b : Fin 8) (t : ℕ) (d : Fin 2048) : EReal :=
  xpad x b (t + k.val) d * w (ix2 k d)

/-- The convolution at batch `b`, time `t`, channel `d`: bias, then the four taps in order. -/
def convAt (x : SX.Idx → EReal) (w : SW.Idx → EReal) (β : SB.Idx → EReal) (b : Fin 8) (t : ℕ) (d : Fin 2048) : EReal :=
  (((β (ix1 d) + tap x w 0 b t d) + tap x w 1 b t d) + tap x w 2 b t d) + tap x w 3 b t d

/-- The whole result array. -/
def conv (x : SX.Idx → EReal) (w : SW.Idx → EReal) (β : SB.Idx → EReal) : SX.Idx → EReal :=
  fun i => convAt x w β (i 0) (i 1).val (i 2)

theorem conv_apply (x : SX.Idx → EReal) (w : SW.Idx → EReal) (β : SB.Idx → EReal) (b : Fin 8) (t : Fin 4096) (d : Fin 2048) :
    conv x w β (ix3 b t d) = convAt x w β b t.val d := rfl

/-- The law that joins the two orders of summation: last tap and bias first, then taps 0, 1, 2 — against bias, then taps
    0, 1, 2, 3. Addition of extended reals is commutative and associative, whatever the entries. -/
theorem sum_reorder (β a0 a1 a2 a3 : EReal) : (((a3 + β) + a0) + a1) + a2 = (((β + a0) + a1) + a2) + a3 := by
  ac_rfl

end Cert.ConvSpec

end
-- ==== Proof.ConvRead.lean ====
/-
  One grid point's block, read entry by entry over the extended reals.

  Fix a batch and a channel, and write P k for the padded input at offset k from the start of the point's time tile
  (so the tile's row r holds P (r + 3), and the halo's row k holds P k for k < 3). Then the block the point leaves holds, at
  row r, the bias plus the four taps P r · w0, P (r+1) · w1, P (r+2) · w2, P (r+3) · w3 in that order. For r ≥ 3 the body
  computed it from rotations of the tile, last tap and bias first: the same sum in another order. For r < 3 it computed it
  from the halo followed by the tile's first rows, in the order above.
-/
import proofs.«107712_j50818053046278_2_alg».proof.Proof.ConvPieces
import proofs.«107712_j50818053046278_2_alg».proof.Proof.ConvSpec
import Idealize.ShloMosaic.Lib.ValueIdx
import Idealize.ShloMosaic.Lib.ValueLayout
import Idealize.ShloMosaic.Lib.KernelVsHost
import Idealize.ShloMosaic.PureOps.Ideal.Laws

noncomputable section

open Idealize.ShloMosaic Idealize.ShloMosaic.ValueIdx

namespace Cert.KernelIdeal.ConvRead

open Cert.KernelIdeal Cert.KernelIdeal.Gen Cert.KernelIdeal.ConvPieces

/-- The tile with its unit axis dropped: row r, channel d. -/
theorem tile_apply (x0 : Vec Ideal S1x512x2048 .f32) (r : Fin 512) (d : Fin 2048) :
    k0_pay4 (F := Ideal) x0 (ix2 r d) = x0 (ix3 (0 : Fin 1) r d) :=
  shapeCast_1ab_ab_apply x0 _ r d

/-- Weight row k spread over n rows reads the weight of tap k at the channel. -/
theorem wrow_apply {n : Nat} (x1 : Vec Ideal S4x2048 .f32) (o : Nat) (hs : S4x2048.Slices ![o, 0] S1x2048)
    (h1 : S1x2048.ShapeCasts S2048) (h2 : S2048.ShapeCasts S1x2048) (hb : S1x2048.Broadcasts (⟨2, ![n, 2048]⟩ : Shape))
    (k : Fin 4) (hk : k.val = o) (r : Fin n) (d : Fin 2048) :
    broadcastTo (⟨2, ![n, 2048]⟩ : Shape) (shapeCast S1x2048 (shapeCast S2048 (extractStridedSlice S1x2048 ![o, 0] x1 hs) h1) h2) hb (ix2 r d)
      = x1 (ix2 k d) := by
  refine (broadcastTo_1b_ab_apply _ hb r d).trans ?_
  refine (shapeCast_a_1a_apply _ h2 0 d).trans ?_
  refine (shapeCast_1a_a_apply _ h1 d).trans ?_
  exact slice2_axis0_apply o x1 hs (0 : Fin 1) d k (by simp [hk])

/-- A rotation of the tile along time by s, read at a row at or past s, is the tile s rows earlier. -/
theorem rot_apply (T : FVec Ideal S512x2048 .f32) (sb : BitVec 32) (s : Nat) (hs : sb.toNat = s) (h : S512x2048.Rotates 0 none)
    (r : Fin 512) (d : Fin 2048) (r' : Fin 512) (hr : r'.val + s = r.val) :
    dynamicRotate (0 : Fin S512x2048.rank) sb none T h (ix2 r d) = T (ix2 r' d) := by
  refine dynamicRotate_apply (0 : Fin S512x2048.rank) sb T h (ix2 r d) (ix2 r' d) fun b => ?_
  match b with
  | ⟨0, _⟩ =>
    show r'.val = if (0 : Fin 2) = 0 then (r.val + 512 - sb.toNat % 512) % 512 else r.val
    rw [if_pos rfl, hs]; have := r.isLt; have := r'.isLt; omega
  | ⟨1, _⟩ =>
    show d.val = if (1 : Fin 2) = 0 then _ else d.val
    rw [if_neg (by decide)]

/-- The first whole write: the last tap plus the bias. -/
theorem pay6_apply (x0 : Vec Ideal S1x512x2048 .f32) (x1 : Vec Ideal S4x2048 .f32) (x2 : Vec Ideal S1x2048 .f32) (r : Fin 512) (d : Fin 2048) :
    k0_pay6 (F := Ideal) x0 x1 x2 (ix3 (0 : Fin 1) r d) = x0 (ix3 (0 : Fin 1) r d) * x1 (ix2 (3 : Fin 4) d) + x2 (ix2 (0 : Fin 1) d) := by
  unfold k0_pay6
  refine (shapeCast_ab_1ab_apply _ _ 0 r d).trans ?_
  rw [addf_apply, mulf_apply, tile_apply, wrow_apply x1 3 _ _ _ _ 3 rfl r d]
  unfold k0_pay5
  rw [shapeCast_self, broadcastTo_1b_ab_apply]

/-- One more tap added to the block: what was there plus a rotated tile times a weight row. -/
theorem step_apply (prev : Vec Ideal S1x512x2048 .f32) (rotd wr : FVec Ideal S512x2048 .f32)
    (h1 : S1x512x2048.ShapeCasts S512x2048) (h2 : S512x2048.ShapeCasts S1x512x2048) (r : Fin 512) (d : Fin 2048) :
    shapeCast S1x512x2048 (addf (shapeCast S512x2048 prev h1) (mulf rotd wr)) h2 (ix3 (0 : Fin 1) r d)
      = prev (ix3 (0 : Fin 1) r d) + rotd (ix2 r d) * wr (ix2 r d) := by
  refine (shapeCast_ab_1ab_apply _ h2 0 r d).trans ?_
  rw [addf_apply, mulf_apply, shapeCast_1ab_ab_apply]

/-- The second whole write adds tap 0: the tile three rows earlier. -/
theorem pay7_apply (x0 : Vec Ideal S1x512x2048 .f32) (x1 : Vec Ideal S4x2048 .f32) (prev : Vec Ideal S1x512x2048 .f32)
    (r : Fin 512) (d : Fin 2048) (r' : Fin 512) (hr : r'.val + 3 = r.val) :
    k0_pay7 (F := Ideal) x0 x1 prev (ix3 (0 : Fin 1) r d) = prev (ix3 (0 : Fin 1) r d) + x0 (ix3 (0 : Fin 1) r' d) * x1 (ix2 (0 : Fin 4) d) := by
  unfold k0_pay7
  refine (step_apply prev _ _ _ _ r d).trans ?_
  rw [rot_apply _ 3#32 3 rfl _ r d r' hr, tile_apply, wrow_apply x1 0 _ _ _ _ 0 rfl r d]

/-- The third adds tap 1: the tile two rows earlier. -/
theorem pay9_apply (x0 : Vec Ideal S1x512x2048 .f32) (x1 : Vec Ideal S4x2048 .f32) (prev : Vec Ideal S1x512x2048 .f32)
    (r : Fin 512) (d : Fin 2048) (r' : Fin 512) (hr : r'.val + 2 = r.val) :
    k0_pay9 (F := Ideal) x1 (k0_pay8 x0) prev (ix3 (0 : Fin 1) r d) = prev (ix3 (0 : Fin 1) r d) + x0 (ix3 (0 : Fin 1) r' d) * x1 (ix2 (1 : Fin 4) d) := by
  unfold k0_pay9 k0_pay8
  refine (step_apply prev _ _ _ _ r d).trans ?_
  rw [rot_apply _ 2#32 2 rfl _ r d r' hr, tile_apply, wrow_apply x1 1 _ _ _ _ 1 rfl r d]

/-- The fourth adds tap 2: the tile one row earlier. -/
theorem pay10_apply (x0 : Vec Ideal S1x512x2048 .f32) (x1 : Vec Ideal S4x2048 .f32) (prev : Vec Ideal S1x512x2048 .f32)
    (r : Fin 512) (d : Fin 2048) (r' : Fin 512) (hr : r'.val + 1 = r.val) :
    k0_pay10 (F := Ideal) (k0_pay4 x0) x1 prev (ix3 (0 : Fin 1) r d) = prev (ix3 (0 : Fin 1) r d) + x0 (ix3 (0 : Fin 1) r' d) * x1 (ix2 (2 : Fin 4) d) := by
  unfold k0_pay10
  refine (step_apply prev _ _ _ _ r d).trans ?_
  rw [rot_apply _ 1#32 1 rfl _ r d r' hr, tile_apply, wrow_apply x1 2 _ _ _ _ 2 rfl r d]

/-- The block after its four whole writes, at a row at or past 3: last tap and bias, then taps 0, 1, 2. -/
theorem rolled_apply (x0 : Vec Ideal S1x512x2048 .f32) (x1 : Vec Ideal S4x2048 .f32) (x2 : Vec Ideal S1x2048 .f32) (r : Fin 512) (d : Fin 2048) (h3 : 3 ≤ r.val) :
    rolled (F := Ideal) x0 x1 x2 (ix3 (0 : Fin 1) r d) =
      (((x0 (ix3 (0 : Fin 1) r d) * x1 (ix2 (3 : Fin 4) d) + x2 (ix2 (0 : Fin 1) d))
        + x0 (ix3 (0 : Fin 1) (⟨r.val - 3, by have := r.isLt; omega⟩ : Fin 512) d) * x1 (ix2 (0 : Fin 4) d))
        + x0 (ix3 (0 : Fin 1) (⟨r.val - 2, by have := r.isLt; omega⟩ : Fin 512) d) * x1 (ix2 (1 : Fin 4) d))
        + x0 (ix3 (0 : Fin 1) (⟨r.val - 1, by have := r.isLt; omega⟩ : Fin 512) d) * x1 (ix2 (2 : Fin 4) d) := by
  unfold rolled
  rw [pay10_apply x0 x1 _ r d ⟨r.val - 1, by have := r.isLt; omega⟩ (by show r.val - 1 + 1 = r.val; omega),
    pay9_apply x0 x1 _ r d ⟨r.val - 2, by have := r.isLt; omega⟩ (by show r.val - 2 + 2 = r.val; omega),
    pay7_apply x0 x1 _ r d ⟨r.val - 3, by have := r.isLt; omega⟩ (by show r.val - 3 + 3 = r.val; omega),
    pay6_apply]

/-- The halo followed by the tile, along time: position k < 3 is the halo's row k, position k ≥ 3 the tile's row k - 3. -/
def strip (x0 : Vec Ideal S1x512x2048 .f32) (halo : Vec Ideal S3x2048 .f32) (d : Fin 2048) (k : ℕ) : EReal :=
  if h : k < 3 then halo (ix2 (⟨k, h⟩ : Fin 3) d) else if h' : k - 3 < 512 then x0 (ix3 (0 : Fin 1) (⟨k - 3, h'⟩ : Fin 512) d) else 0

/-- The body's six-row strip is the halo followed by the tile's first three rows. -/
theorem cat_apply (x0 : Vec Ideal S1x512x2048 .f32) (halo : Vec Ideal S3x2048 .f32) (k : Fin 6) (d : Fin 2048) :
    k0_pay11 (F := Ideal) (k0_pay4 x0) halo (ix2 k d) = strip x0 halo d k.val := by
  unfold k0_pay11 strip
  by_cases h : k.val < 3
  · rw [dif_pos h]
    exact concatenate_pair_apply_left (t := S6x2048) (s₁ := S3x2048) (s₂ := S3x2048) (0 : Fin S6x2048.rank) halo _ _ (ix2 k d) rfl (ix2 (⟨k.val, h⟩ : Fin 3) d)
      (fun b => match b with | ⟨0, _⟩ => rfl | ⟨1, _⟩ => rfl)
  · have h' : k.val - 3 < 512 := by have := k.isLt; omega
    have h3 : k.val - 3 < 3 := by have := k.isLt; omega
    rw [dif_neg h, dif_pos h']
    refine (concatenate_pair_apply_right (t := S6x2048) (s₁ := S3x2048) (s₂ := S3x2048) (0 : Fin S6x2048.rank) halo _ _ (ix2 k d) rfl rfl (ix2 (⟨k.val - 3, h3⟩ : Fin 3) d)
      (fun b hb => ?_) ?_).trans ?_
    · match b with
      | ⟨0, _⟩ => exact absurd (Fin.ext rfl) hb
      | ⟨1, _⟩ => rfl
    · show (k.val - 3) + 3 = k.val; omega
    · exact (slice2_axis0_apply 0 (k0_pay4 x0) _ (⟨k.val - 3, h3⟩ : Fin 3) d (⟨k.val - 3, h'⟩ : Fin 512) (by simp)).trans
        (tile_apply x0 _ d)

/-- A window of three rows of the strip starting at row o. -/
theorem win_apply (x0 : Vec Ideal S1x512x2048 .f32) (halo : Vec Ideal S3x2048 .f32) (o : Nat) (hs : S6x2048.Slices ![o, 0] S3x2048)
    (j : Fin 3) (d : Fin 2048) (ho : o + j.val < 6) :
    extractStridedSlice S3x2048 ![o, 0] (k0_pay11 (F := Ideal) (k0_pay4 x0) halo) hs (ix2 j d) = strip x0 halo d (o + j.val) :=
  (slice2_axis0_apply o _ hs j d (⟨o + j.val, ho⟩ : Fin 6) rfl).trans (cat_apply x0 halo ⟨o + j.val, ho⟩ d)

/-- Bias and the first two taps of the patch. -/
theorem pay12_apply (x0 : Vec Ideal S1x512x2048 .f32) (x1 : Vec Ideal S4x2048 .f32) (x2 : Vec Ideal S1x2048 .f32) (halo : Vec Ideal S3x2048 .f32) (j : Fin 3) (d : Fin 2048) :
    k0_pay12 (F := Ideal) (k0_pay4 x0) x1 (k0_pay5 x2) halo (ix2 j d)
      = (x2 (ix2 (0 : Fin 1) d) + strip x0 halo d (0 + j.val) * x1 (ix2 (0 : Fin 4) d)) + strip x0 halo d (1 + j.val) * x1 (ix2 (1 : Fin 4) d) := by
  unfold k0_pay12
  rw [addf_apply, addf_apply, mulf_apply, mulf_apply,
    win_apply x0 halo 0 _ j d (by have := j.isLt; omega), win_apply x0 halo 1 _ j d (by have := j.isLt; omega),
    wrow_apply x1 0 _ _ _ _ 0 rfl j d, wrow_apply x1 1 _ _ _ _ 1 rfl j d]
  unfold k0_pay5
  rw [shapeCast_self, shapeCast_self, broadcastTo_1b_ab_apply]

/-- The three-row patch: bias, then the four taps read off the strip. -/
theorem patch_apply (x0 : Vec Ideal S1x512x2048 .f32) (x1 : Vec Ideal S4x2048 .f32) (x2 : Vec Ideal S1x2048 .f32) (halo : Vec Ideal S3x2048 .f32) (j : Fin 3) (d : Fin 2048) :
    patch (F := Ideal) x0 x1 x2 halo (ix3 (0 : Fin 1) j d)
      = (((x2 (ix2 (0 : Fin 1) d) + strip x0 halo d (0 + j.val) * x1 (ix2 (0 : Fin 4) d))
          + strip x0 halo d (1 + j.val) * x1 (ix2 (1 : Fin 4) d))
          + strip x0 halo d (2 + j.val) * x1 (ix2 (2 : Fin 4) d))
          + strip x0 halo d (3 + j.val) * x1 (ix2 (3 : Fin 4) d) := by
  unfold patch k0_pay1
  refine (shapeCast_ab_1ab_apply _ _ 0 j d).trans ?_
  rw [addf_apply, addf_apply, mulf_apply, mulf_apply, pay12_apply]
  unfold k0_pay13 k0_pay14
  rw [win_apply x0 halo 2 _ j d (by have := j.isLt; omega), win_apply x0 halo 3 _ j d (by have := j.isLt; omega),
    wrow_apply x1 2 _ _ _ _ 2 rfl j d, wrow_apply x1 3 _ _ _ _ 3 rfl j d]

/-- The halo a point leaves is its tile's rows 509, 510, 511. -/
theorem haloOf_apply (x0 : Vec Ideal S1x512x2048 .f32) (k : Fin 3) (d : Fin 2048) :
    haloOf (F := Ideal) x0 (ix2 k d) = x0 (ix3 (0 : Fin 1) (⟨509 + k.val, by have := k.isLt; omega⟩ : Fin 512) d) := by
  unfold haloOf k0_pay2
  rw [shapeCast_self]
  exact (slice2_axis0_apply 509 (k0_pay4 x0) _ k d (⟨509 + k.val, by have := k.isLt; omega⟩ : Fin 512) rfl).trans (tile_apply x0 _ d)

/-- The halo a batch starts from is zero. -/
theorem zero_halo_apply (k : Fin 3) (d : Fin 2048) : k0_pay3 (F := Ideal) (ix2 k d) = 0 := by
  unfold k0_pay3
  rw [shapeCast_self]
  show Ideal.ofBits .f32 0x00000000#32 = 0
  exact Ideal.ofBits_zero_f32

/-- The block's first three rows are the patch. -/
theorem blockOf_head (x0 : Vec Ideal S1x512x2048 .f32) (x1 : Vec Ideal S4x2048 .f32) (x2 : Vec Ideal S1x2048 .f32) (halo : Vec Ideal S3x2048 .f32) (j : Fin 3) (d : Fin 2048) :
    blockOf (F := Ideal) x0 x1 x2 halo (ix3 (0 : Fin 1) (⟨j.val, by have := j.isLt; omega⟩ : Fin 512) d) = patch x0 x1 x2 halo (ix3 (0 : Fin 1) j d) := by
  unfold blockOf
  have e : headRect.emb (ix3 (0 : Fin 1) j d : S1x3x2048.Idx) = ix3 (0 : Fin 1) (⟨j.val, by have := j.isLt; omega⟩ : Fin 512) d := by
    funext a; apply Fin.ext
    match a with
    | ⟨0, _⟩ => rfl
    | ⟨1, _⟩ => show 0 + 1 * j.val = j.val; omega
    | ⟨2, _⟩ => show 0 + 1 * d.val = d.val; omega
  rw [← e]
  exact Rect.overlay_emb _ _ _ _

/-- The other rows are the fourth whole write's. -/
theorem blockOf_tail (x0 : Vec Ideal S1x512x2048 .f32) (x1 : Vec Ideal S4x2048 .f32) (x2 : Vec Ideal S1x2048 .f32) (halo : Vec Ideal S3x2048 .f32) (r : Fin 512) (d : Fin 2048) (h3 : 3 ≤ r.val) :
    blockOf (F := Ideal) x0 x1 x2 halo (ix3 (0 : Fin 1) r d) = rolled x0 x1 x2 (ix3 (0 : Fin 1) r d) := by
  unfold blockOf
  refine Rect.overlay_of_not_mem _ _ _ ?_
  rw [Rect.mem_set_unit]
  intro h
  have h' : r.val < 0 + 3 := (h 1).2
  omega

/-- THE TILE LEMMA. If the tile's row r holds P (r + 3) and the halo's row k holds P k, the block's row r holds the
    bias plus the taps P r · w0, P (r+1) · w1, P (r+2) · w2, P (r+3) · w3, in that order. -/
theorem block_apply (x0 : Vec Ideal S1x512x2048 .f32) (x1 : Vec Ideal S4x2048 .f32) (x2 : Vec Ideal S1x2048 .f32) (halo : Vec Ideal S3x2048 .f32) (d : Fin 2048) (P : ℕ → EReal)
    (hT : ∀ r : Fin 512, x0 (ix3 (0 : Fin 1) r d) = P (r.val + 3)) (hH : ∀ k : Fin 3, halo (ix2 k d) = P k.val) (r : Fin 512) :
    blockOf (F := Ideal) x0 x1 x2 halo (ix3 (0 : Fin 1) r d) =
      (((x2 (ix2 (0 : Fin 1) d) + P r.val * x1 (ix2 (0 : Fin 4) d)) + P (r.val + 1) * x1 (ix2 (1 : Fin 4) d))
        + P (r.val + 2) * x1 (ix2 (2 : Fin 4) d)) + P (r.val + 3) * x1 (ix2 (3 : Fin 4) d) := by
  have hS : ∀ k : ℕ, k < 515 → strip x0 halo d k = P k := fun k hk => by
    unfold strip
    by_cases h : k < 3
    · rw [dif_pos h]; exact hH ⟨k, h⟩
    · have h' : k - 3 < 512 := by omega
      rw [dif_neg h, dif_pos h', hT]
      exact congrArg P (by show k - 3 + 3 = k; omega)
  have hr := r.isLt
  by_cases h3 : 3 ≤ r.val
  · rw [blockOf_tail x0 x1 x2 halo r d h3, rolled_apply x0 x1 x2 r d h3, hT, hT, hT, hT]
    rw [show (⟨r.val - 3, by omega⟩ : Fin 512).val + 3 = r.val from by show r.val - 3 + 3 = r.val; omega,
      show (⟨r.val - 2, by omega⟩ : Fin 512).val + 3 = r.val + 1 from by show r.val - 2 + 3 = r.val + 1; omega,
      show (⟨r.val - 1, by omega⟩ : Fin 512).val + 3 = r.val + 2 from by show r.val - 1 + 3 = r.val + 2; omega]
    exact Cert.ConvSpec.sum_reorder _ _ _ _ _
  · have hj : r.val < 3 := by omega
    obtain ⟨rv, hrv⟩ := r
    have e := blockOf_head x0 x1 x2 halo (⟨rv, hj⟩ : Fin 3) d
    rw [e, patch_apply, hS _ (by show 0 + rv < 515; omega), hS _ (by show 1 + rv < 515; omega),
      hS _ (by show 2 + rv < 515; omega), hS _ (by show 3 + rv < 515; omega)]
    show _ = (((x2 (ix2 (0 : Fin 1) d) + P rv * _) + P (rv + 1) * _) + P (rv + 2) * _) + P (rv + 3) * _
    rw [Nat.zero_add, Nat.add_comm 1 rv, Nat.add_comm 2 rv, Nat.add_comm 3 rv]

end Cert.KernelIdeal.ConvRead

end
-- ==== Proof.ConvValue.lean ====
/-
  The kernel's result array is the convolution of its arguments.

  The grid has 64 points: point t works on batch t / 8 and on time tile t % 8 (512 consecutive times). Its input block is
  that tile of x; the weights and the bias row are the same at every point. The halo a point finds is zero at the first
  tile of a batch, and otherwise the last three rows of the tile before it in the same batch — which are exactly the three
  times just before the tile's start. So, with P k the padded input at offset k from the tile's start, the tile's row r
  holds P (r + 3) and the halo's row k holds P k, and the tile lemma gives the convolution at every time of the tile.
  The blocks written back tile the whole result array: time s of batch b belongs to point 8 b + s / 512.
-/
import proofs.«107712_j50818053046278_2_alg».proof.Proof.ConvRead
import proofs.«107712_j50818053046278_2_alg».proof.Proof.Gen.KernelIdeal.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.ConvValue

open Cert.KernelIdeal Cert.KernelIdeal.Gen Cert.KernelIdeal.Value Cert.KernelIdeal.ConvPieces Cert.KernelIdeal.ConvRead Cert.ConvSpec

variable (m : (ℓ : Loc nD τ sig) → Buf (Elt Ideal) ℓ) (ρ : Dev nD → PrngReg)

/-- The convolution of the three argument arrays as launched on core c. -/
abbrev result (c : Dev nD) : Buf (Elt Ideal) ((c : Thread nD τ).loc main_v1) :=
  conv (m ((c : Thread nD τ).loc main_arg0)) (m ((c : Thread nD τ).loc main_arg1)) (m ((c : Thread nD τ).loc main_arg2))

/-- The convolution at time lt · 512 + r, with each tap's padded time written as an offset from the tile's start. -/
theorem convAt_tile (x : SX.Idx → EReal) (w : SW.Idx → EReal) (β : SB.Idx → EReal) (b : Fin 8) (lt r : ℕ) (d : Fin 2048) :
    convAt x w β b (lt * 512 + r) d =
      (((β (ix1 d) + xpad x b (lt * 512 + r) d * w (ix2 (0 : Fin 4) d)) + xpad x b (lt * 512 + (r + 1)) d * w (ix2 (1 : Fin 4) d))
        + xpad x b (lt * 512 + (r + 2)) d * w (ix2 (2 : Fin 4) d)) + xpad x b (lt * 512 + (r + 3)) d * w (ix2 (3 : Fin 4) d) := by
  unfold convAt tap
  show (((_ + xpad x b (lt * 512 + r + 0) d * _) + xpad x b (lt * 512 + r + 1) d * _) + xpad x b (lt * 512 + r + 2) d * _)
    + xpad x b (lt * 512 + r + 3) d * _ = _
  rw [Nat.add_zero, Nat.add_assoc (lt * 512) r 1, Nat.add_assoc (lt * 512) r 2, Nat.add_assoc (lt * 512) r 3]

/-- Where each window's block sits at point t: the input and output tiles at batch t / 8, time tile t % 8; the weights and
    the bias row always at the origin. Decided over the 64 points. -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val / 8 ∧ win0_3.index t (1 : Fin 3) = t.val % 8 ∧ win0_3.index t (2 : Fin 3) = 0 :=
  (by decide +kernel : ∀ t : Fin grid0.N, _)

/-- The input block at point t, row r, is x at batch t / 8, time (t % 8) · 512 + r. -/
theorem tile_read (c : Dev nD) (t : Fin cfg0.N) (r : Fin 512) (d : Fin 2048) (b : Fin 8) (s : Fin 4096)
    (hb : b.val = t.val / 8) (hs : s.val = t.val % 8 * 512 + r.val) :
    (iblk m c 0 t : Vec Ideal S1x512x2048 .f32) (ix3 (0 : Fin 1) r d) = m ((c : Thread nD τ).loc main_arg0) (ix3 b s d) := by
  obtain ⟨e0, e1, e2, -⟩ := idx_facts t
  show V m c main_arg0 (((cfg0.win 0).blk t).view.emb (ix3 (0 : Fin 1) r d)) = _
  rw [V_main_arg0]
  refine congrArg (m ((c : Thread nD τ).loc main_arg0)) (funext fun a => Fin.ext ?_)
  match a with
  | ⟨0, _⟩ => show win0_0.index t (0 : Fin 3) * 1 + 1 * 0 = b.val; omega
  | ⟨1, _⟩ => show win0_0.index t (1 : Fin 3) * 512 + 1 * r.val = s.val; omega
  | ⟨2, _⟩ => show win0_0.index t (2 : Fin 3) * 2048 + 1 * d.val = d.val; omega

/-- The weights block is the weights array. -/
theorem weights_read (c : Dev nD) (t : Fin cfg0.N) (k : Fin 4) (d : Fin 2048) :
    (iblk m c 1 t : Vec Ideal S4x2048 .f32) (ix2 k d) = m ((c : Thread nD τ).loc main_arg1) (ix2 k d) := by
  obtain ⟨-, -, -, e3, e4, -⟩ := idx_facts t
  show V m c main_arg1 (((cfg0.win 1).blk t).view.emb (ix2 k d)) = _
  rw [V_main_arg1]
  refine congrArg (m ((c : Thread nD τ).loc main_arg1)) (funext fun a => Fin.ext ?_)
  match a with
  | ⟨0, _⟩ => show win0_1.index t (0 : Fin 2) * 4 + 1 * k.val = k.val; omega
  | ⟨1, _⟩ => show win0_1.index t (1 : Fin 2) * 2048 + 1 * d.val = d.val; omega

/-- The bias row the region finds is the bias vector with a unit axis in front. -/
theorem bias_array (c : Dev nD) :
    (V m c main_v0 : S1x2048.Idx → EReal) = shapeCast S1x2048 (m ((c : Thread nD τ).loc main_arg2)) shapeCasts_S2048_S1x2048 := by
  dsimp only [Gen.V, Gen.hostOps0]; after_results; rfl

theorem bias_read (c : Dev nD) (t : Fin cfg0.N) (d : Fin 2048) :
    (iblk m c 2 t : Vec Ideal S1x2048 .f32) (ix2 (0 : Fin 1) d) = m ((c : Thread nD τ).loc main_arg2) (ix1 d) := by
  obtain ⟨-, -, -, -, -, e5, e6, -⟩ := idx_facts t
  show V m c main_v0 (((cfg0.win 2).blk t).view.emb (ix2 (0 : Fin 1) d)) = _
  have e : ((cfg0.win 2).blk t).view.emb (ix2 (0 : Fin 1) d) = ix2 (0 : Fin 1) d := funext fun a => Fin.ext (by
    match a with
    | ⟨0, _⟩ => show win0_2.index t (0 : Fin 2) * 1 + 1 * 0 = 0; omega
    | ⟨1, _⟩ => show win0_2.index t (1 : Fin 2) * 2048 + 1 * d.val = d.val; omega)
  rw [e, bias_array]
  exact shapeCast_a_1a_apply _ _ 0 d

/-- After any point the halo holds the last three rows of that point's tile. -/
theorem halo_after (c : Dev nD) (t : Fin cfg0.N) :
    (outsAt0 m c t.val t.isLt).2 = haloOf (iblk m c 0 t) := by
  by_cases h0 : t.val % 8 = 0
  · rw [outsAt0_A m c t h0]; dsimp only
    exact halo_first c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)
  · rw [outsAt0_B m c t h0]; dsimp only
    exact halo_later c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t)
      (outsAt0 m c (t.val - 1) (Nat.lt_of_le_of_lt (Nat.sub_le _ _) t.isLt)).2

/-- At the first tile of a batch the block is computed from the zero halo. -/
theorem block_after_first (c : Dev nD) (t : Fin cfg0.N) (h0 : t.val % 8 = 0) :
    (outsAt0 m c t.val t.isLt).1 = blockOf (iblk m c 0 t) (iblk m c 1 t) (iblk m c 2 t) (k0_pay3 (F := Ideal)) := by
  rw [outsAt0_A m c t h0]; dsimp only
  exact block_first c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)

/-- At a later tile it is computed from the last three rows of the tile before. -/
theorem block_after_later (c : Dev nD) (t : Fin cfg0.N) (h0 : ¬t.val % 8 = 0) :
    (outsAt0 m c t.val t.isLt).1
      = blockOf (iblk m c 0 t) (iblk m c 1 t) (iblk m c 2 t) (haloOf (iblk m c 0 (⟨t.val - 1, Nat.lt_of_le_of_lt (Nat.sub_le _ _) t.isLt⟩ : Fin cfg0.N))) := by
  rw [outsAt0_B m c t h0]; dsimp only
  exact (block_later c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t)
      (outsAt0 m c (t.val - 1) (Nat.lt_of_le_of_lt (Nat.sub_le _ _) t.isLt)).2).trans
    (congrArg (blockOf (iblk m c 0 t) (iblk m c 1 t) (iblk m c 2 t))
      (halo_after m c (⟨t.val - 1, Nat.lt_of_le_of_lt (Nat.sub_le _ _) t.isLt⟩ : Fin cfg0.N)))

/-- THE POINT LEMMA: the block point t leaves holds, at row r, the convolution at batch t / 8, time (t % 8) · 512 + r. -/
theorem point_apply (c : Dev nD) (t : Fin cfg0.N) (r : Fin 512) (d : Fin 2048) (b : Fin 8) (hb : b.val = t.val / 8) :
    (outsAt0 m c t.val t.isLt).1 (ix3 (0 : Fin 1) r d) = convAt (m ((c : Thread nD τ).loc main_arg0)) (m ((c : Thread nD τ).loc main_arg1)) (m ((c : Thread nD τ).loc main_arg2)) b (t.val % 8 * 512 + r.val) d := by
  have hN : t.val < 64 := lt_of_lt_of_eq t.isLt (show cfg0.N = 64 from N_0)
  have hT : ∀ r' : Fin 512, (iblk m c 0 t : Vec Ideal S1x512x2048 .f32) (ix3 (0 : Fin 1) r' d)
      = xpad (m ((c : Thread nD τ).loc main_arg0)) b (t.val % 8 * 512 + (r'.val + 3)) d := fun r' => by
    have hs : t.val % 8 * 512 + r'.val < 4096 := by have := r'.isLt; omega
    rw [tile_read m c t r' d b ⟨t.val % 8 * 512 + r'.val, hs⟩ hb rfl]
    exact (xpad_of_ge _ b _ d (⟨t.val % 8 * 512 + r'.val, hs⟩ : Fin 4096)
      (by show t.val % 8 * 512 + (r'.val + 3) = t.val % 8 * 512 + r'.val + 3; omega)).symm
  rw [convAt_tile]
  by_cases h0 : t.val % 8 = 0
  · rw [block_after_first m c t h0]
    refine (block_apply (iblk m c 0 t) (iblk m c 1 t) (iblk m c 2 t) (k0_pay3 (F := Ideal)) d
      (fun k => xpad (m ((c : Thread nD τ).loc main_arg0)) b (t.val % 8 * 512 + k) d) hT (fun k => ?_) r).trans ?_
    · rw [zero_halo_apply]
      exact (xpad_of_lt _ b _ d (by have := k.isLt; show t.val % 8 * 512 + k.val < 3; omega)).symm
    · rw [bias_read, weights_read, weights_read, weights_read, weights_read]
  · rw [block_after_later m c t h0]
    refine (block_apply (iblk m c 0 t) (iblk m c 1 t) (iblk m c 2 t) (haloOf (iblk m c 0 (⟨t.val - 1, Nat.lt_of_le_of_lt (Nat.sub_le _ _) t.isLt⟩ : Fin cfg0.N))) d
      (fun k => xpad (m ((c : Thread nD τ).loc main_arg0)) b (t.val % 8 * 512 + k) d) hT (fun k => ?_) r).trans ?_
    · have hk := k.isLt
      have hs : (t.val - 1) % 8 * 512 + (509 + k.val) < 4096 := by omega
      rw [haloOf_apply, tile_read m c (⟨t.val - 1, Nat.lt_of_le_of_lt (Nat.sub_le _ _) t.isLt⟩ : Fin cfg0.N) _ d b
        ⟨(t.val - 1) % 8 * 512 + (509 + k.val), hs⟩ (by show b.val = (t.val - 1) / 8; omega) rfl]
      exact (xpad_of_ge _ b _ d (⟨(t.val - 1) % 8 * 512 + (509 + k.val), hs⟩ : Fin 4096)
        (by show t.val % 8 * 512 + k.val = (t.val - 1) % 8 * 512 + (509 + k.val) + 3; omega)).symm
    · rw [bias_read, weights_read, weights_read, weights_read, weights_read]

/-- WHAT POINT t WRITES BACK is its block of the convolution. -/
theorem flushed_eq (c : Dev nD) (t : Fin cfg0.N) :
    (dats m 0 c).flushed 3 t = ((cfg0.win 3).blk t).view.read (Elt Ideal) (result m c) := by
  rw [flushed3]
  have hN : t.val < 64 := lt_of_lt_of_eq t.isLt (show cfg0.N = 64 from N_0)
  obtain ⟨-, -, -, -, -, -, -, e7, e8, e9⟩ := idx_facts t
  have key : ∀ y : S1x512x2048.Idx,
      (outsAt0 m c t.val t.isLt).1 y = result m c (((cfg0.win 3).blk t).view.emb y) := fun y => by
    obtain ⟨u, r, d, rfl⟩ : ∃ (u : Fin 1) (r : Fin 512) (d : Fin 2048), y = ix3 u r d := ⟨y 0, y 1, y 2, eq_ix3 y⟩
    obtain rfl : u = 0 := Subsingleton.elim _ _
    have hs : t.val % 8 * 512 + r.val < 4096 := by have := r.isLt; omega
    have hb : t.val / 8 < 8 := by omega
    have e : ((cfg0.win 3).blk t).view.emb (ix3 (0 : Fin 1) r d)
        = ix3 (⟨t.val / 8, hb⟩ : Fin 8) (⟨t.val % 8 * 512 + r.val, hs⟩ : Fin 4096) d := funext fun a => Fin.ext (by
      match a with
      | ⟨0, _⟩ => show win0_3.index t (0 : Fin 3) * 1 + 1 * 0 = t.val / 8; omega
      | ⟨1, _⟩ => show win0_3.index t (1 : Fin 3) * 512 + 1 * r.val = t.val % 8 * 512 + r.val; omega
      | ⟨2, _⟩ => show win0_3.index t (2 : Fin 3) * 2048 + 1 * d.val = d.val; omega)
    rw [point_apply m c t r d ⟨t.val / 8, hb⟩ rfl, e]
    rfl
  exact funext key

/-- An index of the result array is in point t's block iff each coordinate is in the block's range on its axis. -/
theorem mem_blk (t : Fin cfg0.N) (i : S8x4096x2048.Idx) :
    i ∈ ((cfg0.win 3).blk t).view.set ↔ ∀ a : Fin 3, win0_3.index t a * S1x512x2048.size a ≤ (i a).val
      ∧ (i a).val < win0_3.index t a * S1x512x2048.size a + S1x512x2048.size a := by
  show i ∈ ((View.whole main_v1).slice (win0_3.rect t)).set ↔ _
  rw [View.set_slice_whole, Rect.mem_set_unit]
  exact Iff.rfl

/-- Every index of the result array is in some point's block: batch b, time s belong to point 8 b + s / 512. -/
theorem cover (i : S8x4096x2048.Idx) :
    ∃ t : Fin cfg0.N, (cfg0.win 3).flush t = true ∧ i ∈ ((cfg0.win 3).blk t).view.set := by
  have h0 : (i 0).val < 8 := (i 0).isLt
  have h1 : (i 1).val < 4096 := (i 1).isLt
  have h2 : (i 2).val < 2048 := (i 2).isLt
  have hN : cfg0.N = 64 := N_0
  have ht : (i 0).val * 8 + (i 1).val / 512 < cfg0.N := by rw [hN]; omega
  refine ⟨⟨(i 0).val * 8 + (i 1).val / 512, ht⟩, flush0_3 _, ?_⟩
  rw [mem_blk]
  obtain ⟨-, -, -, -, -, -, -, e7, e8, e9⟩ := idx_facts ⟨(i 0).val * 8 + (i 1).val / 512, ht⟩
  have e7' : win0_3.index ⟨(i 0).val * 8 + (i 1).val / 512, ht⟩ (0 : Fin 3) = ((i 0).val * 8 + (i 1).val / 512) / 8 := e7
  have e8' : win0_3.index ⟨(i 0).val * 8 + (i 1).val / 512, ht⟩ (1 : Fin 3) = ((i 0).val * 8 + (i 1).val / 512) % 8 := e8
  intro a
  match a with
  | ⟨0, _⟩ =>
    show win0_3.index ⟨(i 0).val * 8 + (i 1).val / 512, ht⟩ (0 : Fin 3) * 1 ≤ (i 0).val
      ∧ (i 0).val < win0_3.index ⟨(i 0).val * 8 + (i 1).val / 512, ht⟩ (0 : Fin 3) * 1 + 1
    omega
  | ⟨1, _⟩ =>
    show win0_3.index ⟨(i 0).val * 8 + (i 1).val / 512, ht⟩ (1 : Fin 3) * 512 ≤ (i 1).val
      ∧ (i 1).val < win0_3.index ⟨(i 0).val * 8 + (i 1).val / 512, ht⟩ (1 : Fin 3) * 512 + 512
    omega
  | ⟨2, _⟩ =>
    show win0_3.index ⟨(i 0).val * 8 + (i 1).val / 512, ht⟩ (2 : Fin 3) * 2048 ≤ (i 2).val
      ∧ (i 2).val < win0_3.index ⟨(i 0).val * 8 + (i 1).val / 512, ht⟩ (2 : Fin 3) * 2048 + 2048
    omega

/-- So the result array ends holding the convolution. -/
theorem final (c : Dev nD) : (dats m 0 c).arrAt 3 cfg0.N = result m c :=
  (dats m 0 c).arrAt_eq_of_cover 3 (result m c) (fun t _ => flushed_eq m c t) cover

/-- The kernel's run: the result array at the convolution of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.ConvValue

end
-- ==== Proof.RefIsConv.lean ====
/-
  The reference program computes the specification.

  The reference pads the input with three zeros in front along the time axis, takes the four windows of the padded
  array that start at times 0, 1, 2, 3, multiplies window k by row k of the weights (broadcast over batch and time),
  and adds the four products to the bias (broadcast over batch and time) in the order bias, tap 0, tap 1, tap 2, tap 3.
  Read at one index (b, t, d):
    • the padded array at (b, s, d) is 0 for s < 3 and x[b, s - 3, d] for 3 ≤ s, which is xpad x b s d;
    • window k at (b, t, d) is the padded array at (b, k + t, d);
    • row k of the weights, reshaped and broadcast, at (b, t, d) is w[k, d];
    • the broadcast bias at (b, t, d) is bias[d].
  So product k at (b, t, d) is xpad x b (t + k) d · w[k, d] = tap x w k b t d, and the sum is convAt x w bias b t d.
-/
import proofs.«107712_j50818053046278_2_alg».proof.Proof.ConvSpec
import proofs.«107712_j50818053046278_2_alg».proof.Proof.Gen.ReferenceIdeal.Read
import Idealize.ShloMosaic.Lib.KernelVsHost

noncomputable section

namespace Cert.ReferenceIdeal.RefValue

open Cert.ReferenceIdeal Cert.ReferenceIdeal.Gen Cert.ReferenceIdeal.Read Cert.ConvSpec
open Idealize.ShloMosaic Idealize.ShloMosaic.ValueIdx

/-- The three argument arrays, as the reference takes them. At the ideal instance an entry is an extended real. -/
abbrev ArrX := (⟨S8x4096x2048, .f32⟩ : BufTy).Contents (Elt Ideal)
abbrev ArrW := (⟨S4x2048, .f32⟩ : BufTy).Contents (Elt Ideal)
abbrev ArrB := (⟨S2048, .f32⟩ : BufTy).Contents (Elt Ideal)

/-! ## The padded array -/

/-- The padding value, the integer 0 converted to a float, is the extended real 0. -/
theorem pad_value (i : S_.Idx) : val_main_call0_v0 (F := Ideal) i = (0 : EReal) := by
  rw [val_main_call0_v0_apply, val_main_c_apply]
  show ((((0#32 : BitVec 32).toInt : ℤ) : ℝ) : EReal) = 0
  simp

/-- The padded array at batch b, padded time s, channel d is the input read at the padded time s:
    zero in the three leading positions, the input three steps earlier afterwards. -/
theorem padded_eq_xpad (x : ArrX) (b : Fin 8) (s : Fin 4099) (d : Fin 2048) :
    val_main_v0 (F := Ideal) x (ix3 b s d) = xpad x b s.val d := by
  unfold val_main_v0
  by_cases h : 3 ≤ s.val
  · have hs : s.val - 3 < 4096 := by have := s.isLt; omega
    rw [xpad_of_ge x b s.val d ⟨s.val - 3, hs⟩ (by show s.val = (s.val - 3) + 3; omega)]
    exact pad_apply_of_inside _ _ _ x _ pads_S8x4096x2048_S8x4099x2048_000_300_000 h_S_ (ix3 b s d)
      (ix3 b (⟨s.val - 3, hs⟩ : Fin 4096) d) (fun a => match a with
        | ⟨0, _⟩ => by show b.val = 0 + b.val * (0 + 1); omega
        | ⟨1, _⟩ => by show s.val = 3 + (s.val - 3) * (0 + 1); omega
        | ⟨2, _⟩ => by show d.val = 0 + d.val * (0 + 1); omega)
  · rw [xpad_of_lt x b s.val d (by omega)]
    rw [pad_apply_of_not_inside _ _ _ x _ pads_S8x4096x2048_S8x4099x2048_000_300_000 h_S_ (ix3 b s d) (1 : Fin 3)
      (by show ¬(3 ≤ s.val ∧ (s.val - 3) % (0 + 1) = 0 ∧ (s.val - 3) / (0 + 1) < 4096); omega)]
    exact pad_value _

/-! ## The four windows of the padded array -/

/-- Window k of the padded array at (b, t, d) is the input read at the padded time t + k. Stated once for an index of
    the padded array whose time coordinate is known. -/
theorem padded_at (x : ArrX) (b : Fin 8) (d : Fin 2048) (s : ℕ) (j : S8x4099x2048.Idx) (u : Fin 4099)
    (hj : j = ix3 b u d) (hu : u.val = s) : val_main_v0 (F := Ideal) x j = xpad x b s d := by
  subst hj; subst hu; exact padded_eq_xpad x b u d

theorem window0 (x : ArrX) (b : Fin 8) (t : Fin 4096) (d : Fin 2048) :
    val_main_v1 (F := Ideal) x (ix3 b t d) = xpad x b (t.val + (0 : Fin 4).val) d := by
  rw [val_main_v1_apply]
  exact padded_at x b d _ _ (⟨t.val, by have := t.isLt; omega⟩ : Fin 4099)
    (by funext a; match a with | ⟨0, _⟩ => rfl | ⟨1, _⟩ => rfl | ⟨2, _⟩ => rfl) (by show t.val = t.val + 0; omega)

theorem window1 (x : ArrX) (b : Fin 8) (t : Fin 4096) (d : Fin 2048) :
    val_main_v10 (F := Ideal) x (ix3 b t d) = xpad x b (t.val + (1 : Fin 4).val) d := by
  rw [val_main_v10_apply]
  exact padded_at x b d _ _ (⟨1 + t.val, by have := t.isLt; omega⟩ : Fin 4099)
    (by funext a; match a with | ⟨0, _⟩ => rfl | ⟨1, _⟩ => rfl | ⟨2, _⟩ => rfl) (by show 1 + t.val = t.val + 1; omega)

theorem window2 (x : ArrX) (b : Fin 8) (t : Fin 4096) (d : Fin 2048) :
    val_main_v17 (F := Ideal) x (ix3 b t d) = xpad x b (t.val + (2 : Fin 4).val) d := by
  rw [val_main_v17_apply]
  exact padded_at x b d _ _ (⟨2 + t.val, by have := t.isLt; omega⟩ : Fin 4099)
    (by funext a; match a with | ⟨0, _⟩ => rfl | ⟨1, _⟩ => rfl | ⟨2, _⟩ => rfl) (by show 2 + t.val = t.val + 2; omega)

theorem window3 (x : ArrX) (b : Fin 8) (t : Fin 4096) (d : Fin 2048) :
    val_main_v24 (F := Ideal) x (ix3 b t d) = xpad x b (t.val + (3 : Fin 4).val) d := by
  rw [val_main_v24_apply]
  exact padded_at x b d _ _ (⟨3 + t.val, by have := t.isLt; omega⟩ : Fin 4099)
    (by funext a; match a with | ⟨0, _⟩ => rfl | ⟨1, _⟩ => rfl | ⟨2, _⟩ => rfl) (by show 3 + t.val = t.val + 3; omega)

/-! ## The rows of the weights and the bias, broadcast over batch and time -/

/-- A channel index reduced modulo the number of channels is itself. -/
theorem chan_mod (d : Fin 2048) : d.val % 2048 = d.val := Nat.mod_eq_of_lt d.isLt

theorem weight0 (w : ArrW) (b : Fin 8) (t : Fin 4096) (d : Fin 2048) :
    val_main_v5 (F := Ideal) w (ix3 b t d) = w (ix2 (0 : Fin 4) d) := by
  rw [val_main_v5_apply, val_main_v4_apply, val_main_v3_apply, val_main_v2_apply]
  refine congrArg w ?_
  funext a; match a with | ⟨0, _⟩ => rfl | ⟨1, _⟩ => exact Fin.ext (chan_mod d)

theorem weight1 (w : ArrW) (b : Fin 8) (t : Fin 4096) (d : Fin 2048) :
    val_main_v14 (F := Ideal) w (ix3 b t d) = w (ix2 (1 : Fin 4) d) := by
  rw [val_main_v14_apply, val_main_v13_apply, val_main_v12_apply, val_main_v11_apply]
  refine congrArg w ?_
  funext a; match a with | ⟨0, _⟩ => rfl | ⟨1, _⟩ => exact Fin.ext (chan_mod d)

theorem weight2 (w : ArrW) (b : Fin 8) (t : Fin 4096) (d : Fin 2048) :
    val_main_v21 (F := Ideal) w (ix3 b t d) = w (ix2 (2 : Fin 4) d) := by
  rw [val_main_v21_apply, val_main_v20_apply, val_main_v19_apply, val_main_v18_apply]
  refine congrArg w ?_
  funext a; match a with | ⟨0, _⟩ => rfl | ⟨1, _⟩ => exact Fin.ext (chan_mod d)

theorem weight3 (w : ArrW) (b : Fin 8) (t : Fin 4096) (d : Fin 2048) :
    val_main_v28 (F := Ideal) w (ix3 b t d) = w (ix2 (3 : Fin 4) d) := by
  rw [val_main_v28_apply, val_main_v27_apply, val_main_v26_apply, val_main_v25_apply]
  refine congrArg w ?_
  funext a; match a with | ⟨0, _⟩ => rfl | ⟨1, _⟩ => exact Fin.ext (chan_mod d)

theorem bias_at (β : ArrB) (b : Fin 8) (t : Fin 4096) (d : Fin 2048) :
    val_main_v8 (F := Ideal) β (ix3 b t d) = β (ix1 d) := by
  rw [val_main_v8_apply, val_main_v7_apply]
  refine congrArg β ?_
  funext a; match a with | ⟨0, _⟩ => rfl

/-! ## The four products are the four taps, and the sum is the convolution -/

theorem product0 (x : ArrX) (w : ArrW) (b : Fin 8) (t : Fin 4096) (d : Fin 2048) :
    val_main_v6 (F := Ideal) x w (ix3 b t d) = tap x w 0 b t.val d := by
  rw [val_main_v6_apply, window0, weight0]; rfl

theorem product1 (x : ArrX) (w : ArrW) (b : Fin 8) (t : Fin 4096) (d : Fin 2048) :
    val_main_v15 (F := Ideal) x w (ix3 b t d) = tap x w 1 b t.val d := by
  rw [val_main_v15_apply, window1, weight1]; rfl

theorem product2 (x : ArrX) (w : ArrW) (b : Fin 8) (t : Fin 4096) (d : Fin 2048) :
    val_main_v22 (F := Ideal) x w (ix3 b t d) = tap x w 2 b t.val d := by
  rw [val_main_v22_apply, window2, weight2]; rfl

theorem product3 (x : ArrX) (w : ArrW) (b : Fin 8) (t : Fin 4096) (d : Fin 2048) :
    val_main_v29 (F := Ideal) x w (ix3 b t d) = tap x w 3 b t.val d := by
  rw [val_main_v29_apply, window3, weight3]; rfl

/-- The reference's result is the convolution of the specification. -/
theorem ref_is_conv (x : (⟨S8x4096x2048, .f32⟩ : BufTy).Contents (Elt Ideal))
    (w : (⟨S4x2048, .f32⟩ : BufTy).Contents (Elt Ideal)) (β : (⟨S2048, .f32⟩ : BufTy).Contents (Elt Ideal)) :
    Cert.ReferenceIdeal.Read.val_main_v30 (F := Ideal) x w β = Cert.ConvSpec.conv x w β := by
  funext i
  obtain ⟨b, t, d, rfl⟩ : ∃ (b : Fin 8) (t : Fin 4096) (d : Fin 2048), i = ix3 b t d := ⟨i 0, i 1, i 2, eq_ix3 i⟩
  rw [conv_apply, val_main_v30_apply, val_main_v23_apply, val_main_v16_apply, val_main_v9_apply,
    product3, product2, product1, product0, bias_at]
  rfl

end Cert.ReferenceIdeal.RefValue

end
-- ==== Proof.lean ====
/-
  A depthwise causal convolution with four taps along time, tiled over time with a carried halo, against the same
  convolution written with a zero-padded input:
    y[b, t, d] = bias[d] + Σ_{k<4} xpad[b, t + k, d] · w[k, d],   xpad = x moved three steps later, zeros in front.

  The reference computes this sum directly, in the order bias, tap 0, tap 1, tap 2, tap 3. The kernel walks each batch
  tile by tile (512 times per tile) and keeps the last three rows of the tile it just finished as a halo, reset to zero at the
  start of a batch. For rows 3 and later of a tile it adds the taps as rotations of the tile along time, last tap and bias
  first; for rows 0, 1, 2 it recomputes the sum from the halo followed by the tile's first rows, in the reference's order.
  Over the extended reals both are the same number: the halo holds exactly the three times before the tile (or the zero
  padding), and the two orders of summation agree because addition is commutative and associative. No entry needs to be
  finite, so the precondition is never opened. The idealized kernel is the kernel's own text read over the extended reals:
  the claim that relates the two has nothing to state.
-/
import proofs.«107712_j50818053046278_2_alg».proof.Defs
import proofs.«107712_j50818053046278_2_alg».proof.Proof.Gen.Kernel
import proofs.«107712_j50818053046278_2_alg».proof.Proof.Gen.Kernel.Skeleton
import proofs.«107712_j50818053046278_2_alg».proof.Proof.Gen.Kernel.Launch
import proofs.«107712_j50818053046278_2_alg».proof.Proof.Gen.Kernel.Points
import proofs.«107712_j50818053046278_2_alg».proof.Proof.Gen.Kernel.Frame
import proofs.«107712_j50818053046278_2_alg».proof.Proof.Gen.KernelIdeal
import proofs.«107712_j50818053046278_2_alg».proof.Proof.Gen.KernelIdeal.Skeleton
import proofs.«107712_j50818053046278_2_alg».proof.Proof.Gen.KernelIdeal.Launch
import proofs.«107712_j50818053046278_2_alg».proof.Proof.Gen.KernelIdeal.Points
import proofs.«107712_j50818053046278_2_alg».proof.Proof.Gen.KernelIdeal.Frame
import proofs.«107712_j50818053046278_2_alg».proof.Proof.Gen.ReferenceIdeal
import proofs.«107712_j50818053046278_2_alg».proof.Proof.Gen.Pre_finite_inputs
import proofs.«107712_j50818053046278_2_alg».proof.Proof.Gen.KernelIdeal.Value
import proofs.«107712_j50818053046278_2_alg».proof.Proof.Gen.ReferenceIdeal.Run
import proofs.«107712_j50818053046278_2_alg».proof.Proof.Gen.ReferenceIdeal.Read
import proofs.«107712_j50818053046278_2_alg».proof.Proof.ConvValue
import proofs.«107712_j50818053046278_2_alg».proof.Proof.RefIsConv
import Idealize.ShloMosaic.Adequacy
import Idealize.ShloMosaic.Init

noncomputable section

namespace Cert.Proof

open Idealize.ShloMosaic Idealize.SL.Sem Cert.Kernel

/-- The kernel as printed runs and leaves its arguments unchanged. -/
theorem frame_kernel [Cert.Kernel.Facts] [Cert.Pre_finite_inputs.Facts] : Cert.frame_Kernel :=
  fun m ρ _ => Cert.Kernel.Gen.frame m ρ

/-- So does its idealization. -/
theorem frame_kernelIdeal [Cert.KernelIdeal.Facts] [Cert.Pre_finite_inputs.Facts] : Cert.frame_KernelIdeal :=
  fun m ρ _ => Cert.KernelIdeal.Gen.frame m ρ

/-- The reference is a straight line of host operations: it runs, and writes none of its arguments. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- Over the extended reals both programs end with the convolution of the arguments they were given; the arguments
    agree, so the results are equal entry by entry. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.ConvValue.result m c, Cert.KernelIdeal.ConvValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v30_eq (F := Ideal) _ _ _).trans ?_
  rw [Cert.ReferenceIdeal.RefValue.ref_is_conv, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
